-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x2x4096 : Shape := ⟨3, ![8, 2, 4096]⟩
abbrev S8x1x1 : Shape := ⟨3, ![8, 1, 1]⟩
abbrev S1x512x2 : Shape := ⟨3, ![1, 512, 2]⟩
abbrev S1x2x4096 : Shape := ⟨3, ![1, 2, 4096]⟩
abbrev S1x1x1 : Shape := ⟨3, ![1, 1, 1]⟩
abbrev S1x4096 : Shape := ⟨2, ![1, 4096]⟩
abbrev S1x1 : Shape := ⟨2, ![1, 1]⟩
abbrev S512x2 : Shape := ⟨2, ![512, 2]⟩
abbrev S512x1 : Shape := ⟨2, ![512, 1]⟩
abbrev S2x4096 : Shape := ⟨2, ![2, 4096]⟩
abbrev S512x4096 : Shape := ⟨2, ![512, 4096]⟩
abbrev S512 : Shape := ⟨1, ![512]⟩
abbrev S1 : Shape := ⟨1, ![1]⟩
abbrev S4096 : Shape := ⟨1, ![4096]⟩
abbrev S8 : Shape := ⟨1, ![8]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x2x4096, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x512x2, .f32⟩
  | .local _ .vmem, ⟨1, _⟩ => ⟨S1x512x2, .f32⟩
  | .local _ .vmem, ⟨2, _⟩ => ⟨S1x2x4096, .f32⟩
  | .local _ .vmem, ⟨3, _⟩ => ⟨S1x2x4096, .f32⟩
  | .local _ .vmem, ⟨4, _⟩ => ⟨S1x1x1, .f32⟩
  | .local _ .vmem, ⟨5, _⟩ => ⟨S1x1x1, .f32⟩
  | .local _ .vmem, ⟨6, _⟩ => ⟨S1x4096, .f32⟩
  | .local _ .vmem, ⟨7, _⟩ => ⟨S1x1, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_16 : BitVec 32 := 0#32
  let v38 : BitVec 1 := Scalar.cmpi .ne v37 c0_i32_16
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x4096x2_S8x2x4096_0_2_1 : S8x4096x2.Transposes [0, 2, 1] S8x2x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  slices_S512x2_o0_0_S512x1 : S512x2.Slices ![0, 0] S512x1
  slices_S512x2_o0_1_S512x1 : S512x2.Slices ![0, 1] S512x1
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  slices_S2x4096_o0_0_S1x4096 : S2x4096.Slices ![0, 0] S1x4096
  slices_S2x4096_o1_0_S1x4096 : S2x4096.Slices ![1, 0] S1x4096
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  reduces_S512x4096_S4096 : S512x4096.Reduces [0] S4096
  shapeCasts_S4096_S1x4096 : S4096.ShapeCasts S1x4096
  reduces_S1x4096_S1 : S1x4096.Reduces [1] S1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x4096x2.size a
  hwx0_0 : ∀ i : grid0.Coords, EltTy.bits .f32 = 32 ∨ (Rect.block (s := S8x4096x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S8x2x4096.size a
  hwx0_1 : ∀ i : grid0.Coords, EltTy.bits .f32 = 32 ∨ (Rect.block (s := S8x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

abbrev win0_0 : Pipeline.Window sig grid0 :=
  Pipeline.Window.ofSpec (Memref.whole main_arg0) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x2 : Shape := ⟨3, ![8, 4096, 2]⟩
abbrev S8x4096x1x2 : Shape := ⟨4, ![8, 4096, 1, 2]⟩
abbrev S8x1x4096x2 : Shape := ⟨4, ![8, 1, 4096, 2]⟩
abbrev S8x4096x4096x2 : Shape := ⟨4, ![8, 4096, 4096, 2]⟩
abbrev S_ : Shape := ⟨0, ![]⟩
abbrev S8x4096x4096 : Shape := ⟨3, ![8, 4096, 4096]⟩
abbrev S8x4096 : Shape := ⟨2, ![8, 4096]⟩
abbrev S8 : Shape := ⟨1, ![8]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1x2, .f32⟩
  | .hbm, ⟨3, _⟩ => ⟨S8x1x4096x2, .f32⟩
  | .hbm, ⟨4, _⟩ => ⟨S8x4096x4096x2, .f32⟩
  | .hbm, ⟨5, _⟩ => ⟨S8x4096x4096x2, .f32⟩
  | .hbm, ⟨6, _⟩ => ⟨S8x4096x4096x2, .f32⟩
  | .hbm, ⟨7, _⟩ => ⟨S8x4096x4096x2, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x4096x2_S8x4096x1x2_0_1_3 : S8x4096x2.BroadcastsInDim S8x4096x1x2 (![0, 1, 3] : Fin 3 → Fin S8x4096x1x2.rank)
  bcast_S8x4096x2_S8x1x4096x2_0_2_3 : S8x4096x2.BroadcastsInDim S8x1x4096x2 (![0, 2, 3] : Fin 3 → Fin S8x1x4096x2.rank)
  bcast_S8x4096x1x2_S8x4096x4096x2_0_1_2_3 : S8x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  reducesTo_S8x4096x4096_S8x4096_d2 : S8x4096x4096.ReducesTo [2] S8x4096
  reducesTo_S8x4096_S8_d1 : S8x4096.ReducesTo [1] S8
  reducesTo_S8x4096x4096_S8x4096_d1 : S8x4096x4096.ReducesTo [1] S8x4096
  reducesTo_S8_S_d0 : S8.ReducesTo [0] S_

variable [Facts₀]

class Facts : Prop extends Facts₀ where

variable [Facts]
-- ==== Proof.KPieces.lean ====
/-
  What one run of the kernel body leaves in its two carried scratch buffers and in its output block, as pure values of what
  the body loads, for each of the body's three control cases (first step of a batch; a middle step; last step of a batch).

  The column-minimum scratch ends at the elementwise minimum of what it held and the tile's column minima; at a first step
  what it held is the all-plus-infinity row just stored. The running-maximum scratch ends at the maximum of what it held and
  the tile's largest row minimum; at a first step what it held is minus infinity. At a last step the output block is the
  square root of the larger of the running maximum and the largest column minimum, both read after this step's updates.
-/
import proofs.«138596_j2044404433132_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Hausdorff.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : cond0_0 i) (hc1 : ¬cond0_1 i) (x0 : Vec F S1x512x2 .f32) (x1 : Vec F S1x2x4096 .f32) :
    sout0_A_0 c i a2 h2 a3 h3 a4 h4 a5 h5 a6 h6 hc0 hc1 x0 x1 = k0_pay6 x0 x1 (k0_pay2 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x4096) hz2, View.readCov_unit_zero (S := S1x4096) _ hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem sout_A_1 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : cond0_0 i) (hc1 : ¬cond0_1 i) (x0 : Vec F S1x512x2 .f32) (x1 : Vec F S1x2x4096 .f32) :
    sout0_A_1 c i a2 h2 a3 h3 a4 h4 a5 h5 a6 h6 hc0 hc1 x0 x1 = k0_pay5 x0 x1 (k0_pay3 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem sout_B_0 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : ¬cond0_0 i) (hc1 : ¬cond0_1 i) (x0 : Vec F S1x512x2 .f32) (x1 : Vec F S1x2x4096 .f32)
    (xs0 : Vec F S1x4096 .f32) (xs1 : Vec F S1x1 .f32) :
    sout0_B_0 c i a2 h2 a3 h3 a4 h4 a5 h5 a6 h6 hc0 hc1 x0 x1 xs0 xs1 = k0_pay6 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  rw [View.canon_unit_zero hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem sout_B_1 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : ¬cond0_0 i) (hc1 : ¬cond0_1 i) (x0 : Vec F S1x512x2 .f32) (x1 : Vec F S1x2x4096 .f32)
    (xs0 : Vec F S1x4096 .f32) (xs1 : Vec F S1x1 .f32) :
    sout0_B_1 c i a2 h2 a3 h3 a4 h4 a5 h5 a6 h6 hc0 hc1 x0 x1 xs0 xs1 = k0_pay5 x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  rw [View.canon_unit_zero hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem sout_C_0 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : ¬cond0_0 i) (hc1 : cond0_1 i) (x0 : Vec F S1x512x2 .f32) (x1 : Vec F S1x2x4096 .f32)
    (xs0 : Vec F S1x4096 .f32) (xs1 : Vec F S1x1 .f32) :
    sout0_C_0 c i a2 h2 a3 h3 a4 h4 a5 h5 a6 h6 hc0 hc1 x0 x1 xs0 xs1 = k0_pay6 x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem sout_C_1 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : ¬cond0_0 i) (hc1 : cond0_1 i) (x0 : Vec F S1x512x2 .f32) (x1 : Vec F S1x2x4096 .f32)
    (xs0 : Vec F S1x4096 .f32) (xs1 : Vec F S1x1 .f32) :
    sout0_C_1 c i a2 h2 a3 h3 a4 h4 a5 h5 a6 h6 hc0 hc1 x0 x1 xs0 xs1 = k0_pay5 x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

theorem out_C_2 (c : Dev nD) (i : grid0.Coords) (a2 : Memref sig .tc .vmem S1x512x2 .f32) (h2 : a2.IsWhole)
    (a3 : Memref sig .tc .vmem S1x2x4096 .f32) (h3 : a3.IsWhole) (a4 : Memref sig .tc .vmem S1x1x1 .f32) (h4 : a4.IsWhole)
    (a5 : Memref sig .tc .vmem S1x4096 .f32) (h5 : a5.IsWhole) (a6 : Memref sig .tc .vmem S1x1 .f32) (h6 : a6.IsWhole)
    (hc0 : ¬cond0_0 i) (hc1 : cond0_1 i) (x0 : Vec F S1x512x2 .f32) (x1 : Vec F S1x2x4096 .f32)
    (xs0 : Vec F S1x4096 .f32) (xs1 : Vec F S1x1 .f32) :
    out0_C_2 c i a2 h2 a3 h3 a4 h4 a5 h5 a6 h6 hc0 hc1 x0 x1 xs0 xs1 = k0_pay1 (k0_pay6 x0 x1 xs0) (k0_pay5 x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz3, View.readCov_unit_zero (S := S1x4096) _ hz2, View.readCov_unit_zero (S := S1x1) _ hz2]
  simp only [View.readAt_eq_ld, h2.read_unread, h3.read_unread, h4.read_unread, h5.read_unread, h6.read_unread,
    View.ld_unit_zero (S := S1x512x2) hz3, View.ld_unit_zero (S := S1x2x4096) hz3, View.ld_unit_zero (S := S1x1x1) hz3,
    View.ld_unit_zero (S := S1x4096) hz2, View.ld_unit_zero (S := S1x1) hz2]

end Cert.Hausdorff.Pieces
end
-- ==== Proof.KBlocks.lean ====
/-
  The blocks the kernel body is handed at a grid position, read off the argument arrays.

  The 64 grid positions are ordered batch-major: position `t` is step `t % 8` of batch `t / 8`. At it, the first window's
  block is the 512 rows `512 * (t % 8) + r` of batch `t / 8` of the first argument; the second window's block is the whole
  batch `t / 8` of the transposed second argument, so its entry (coordinate `d`, point `j`) is the second argument's entry
  (point `j`, coordinate `d`); the output window's block is entry `t / 8` of the result.
-/
import proofs.«138596_j2044404433132_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.Hausdorff.Blocks
open Cert.KernelIdeal Cert.KernelIdeal.Gen Idealize.ShloMosaic.ValueIdx
variable {F : FTy → Type} [FloatOps F]
variable (m : (ℓ : Loc nD τ sig) → Buf (Elt F) ℓ)

/-- The index maps of the three windows, decided once over the grid. -/
theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- The array the second window stages is the second argument with its last two axes exchanged. -/
theorem V_main_v0 (c : Dev nD) :
    (V m c main_v0 : S8x2x4096.Idx → Elt F .f32)
      = transpose S8x2x4096 [0, 2, 1] (m ((c : Thread nD τ).loc main_arg1)) transposes_S8x4096x2_S8x2x4096_0_2_1 := by
  show StableHlo.after hostOps0 (fun b => m (c, b)) (Proc.devRef .tc main_v0) = _
  after_results

/-- The first window's block at position `t`: rows `512 * (t % 8) + r` of batch `t / 8` of the first argument. -/
theorem iblk0_apply (c : Dev nD) (t : Fin cfg0.N) (r : Fin 512) (d : Fin 2) (b : Fin 8) (i : Fin 4096)
    (hb : b.val = t.val / 8) (hi : i.val = 512 * (t.val % 8) + r.val) :
    (iblk m c 0 t : Vec F S1x512x2 .f32) (ix3 (0 : Fin 1) r d) = m ((c : Thread nD τ).loc main_arg0) (ix3 b i d) := by
  unfold iblk
  rw [View.read_apply]
  show V m c main_arg0 _ = _
  rw [V_main_arg0]
  refine congrArg _ (funext fun a => Fin.ext ?_)
  match a with
  | ⟨0, _⟩ => show win0_0.index t 0 * 1 + 1 * 0 = b.val; rw [(index0 t).1]; omega
  | ⟨1, _⟩ => show win0_0.index t 1 * 512 + 1 * r.val = i.val; rw [(index0 t).2.1]; omega
  | ⟨2, _⟩ => show win0_0.index t 2 * 2 + 1 * d.val = d.val; rw [(index0 t).2.2]; omega

/-- The second window's block at position `t`: batch `t / 8` of the second argument, coordinate-major. -/
theorem iblk1_apply (c : Dev nD) (t : Fin cfg0.N) (d : Fin 2) (j : Fin 4096) (b : Fin 8) (hb : b.val = t.val / 8) :
    (iblk m c 1 t : Vec F S1x2x4096 .f32) (ix3 (0 : Fin 1) d j) = m ((c : Thread nD τ).loc main_arg1) (ix3 b j d) := by
  unfold iblk
  rw [View.read_apply]
  show V m c main_v0 _ = _
  rw [V_main_v0]
  refine Eq.trans (congrArg _ (funext fun a => Fin.ext ?_)) (transpose_ix3_021_apply _ _ b d j)
  match a with
  | ⟨0, _⟩ => show win0_1.index t 0 * 1 + 1 * 0 = b.val; rw [(index1 t).1]; omega
  | ⟨1, _⟩ => show win0_1.index t 1 * 2 + 1 * d.val = d.val; rw [(index1 t).2.1]; omega
  | ⟨2, _⟩ => show win0_1.index t 2 * 4096 + 1 * j.val = j.val; rw [(index1 t).2.2]; omega

/-- The first window's block at a position, at its literal shape. -/
def blk0 (c : Dev nD) (t : Fin cfg0.N) : Vec F S1x512x2 .f32 := iblk m c 0 t

/-- The second window's block at a position, at its literal shape. -/
def blk1 (c : Dev nD) (t : Fin cfg0.N) : Vec F S1x2x4096 .f32 := iblk m c 1 t

theorem blk0_apply (c : Dev nD) (t : Fin cfg0.N) (r : Fin 512) (d : Fin 2) (b : Fin 8) (i : Fin 4096)
    (hb : b.val = t.val / 8) (hi : i.val = 512 * (t.val % 8) + r.val) :
    blk0 m c t (ix3 (0 : Fin 1) r d) = m ((c : Thread nD τ).loc main_arg0) (ix3 b i d) :=
  iblk0_apply m c t r d b i hb hi

theorem blk1_apply (c : Dev nD) (t : Fin cfg0.N) (d : Fin 2) (j : Fin 4096) (b : Fin 8) (hb : b.val = t.val / 8) :
    blk1 m c t (ix3 (0 : Fin 1) d j) = m ((c : Thread nD τ).loc main_arg1) (ix3 b j d) :=
  iblk1_apply m c t d j b hb

end Cert.Hausdorff.Blocks
end
-- ==== Proof.KSteps.lean ====
/-
  What the two carried scratch buffers and the output block hold after the body at a grid position, in terms of what the
  position before left, at any float instance.

  At the first step of a batch the scratches are reset (to all plus infinity and to minus infinity) and then updated with
  this tile; at every other step they are updated from what the step before left. The update of the column-minimum scratch
  is the elementwise minimum with the tile's column minima; the update of the running maximum is the maximum with the
  tile's largest row minimum. At the last step of a batch the output block is computed from the two updated scratches.
-/
import proofs.«138596_j2044404433132_2_alg».proof.Proof.Gen.KernelIdeal.Frame
import Idealize.ShloMosaic.Lib.Pipeline.Value
import Idealize.ShloMosaic.Lib.Tactic
import proofs.«138596_j2044404433132_2_alg».proof.Proof.KPieces
import proofs.«138596_j2044404433132_2_alg».proof.Proof.KBlocks

noncomputable section

open Idealize.ShloMosaic Idealize.ShloMosaic.TcCoe Idealize.SL.Sem
open Idealize.ShloMosaic.Pipeline (Dat)

namespace Cert.Hausdorff.Steps
open Cert.KernelIdeal Cert.KernelIdeal.Gen
variable {F : FTy → Type} [FloatOps F]
variable (m : (ℓ : Loc nD τ sig) → Buf (Elt F) ℓ)

/-- After the first step of a batch: the reset values updated with the tile. -/
theorem scratch_first (c : Dev nD) (t : Fin cfg0.N) (h0 : t.val % 8 = 0) (h1 : ¬t.val % 8 = 7) :
    (outsAt0 m c t.val t.isLt).2.1 = k0_pay6 (Blocks.blk0 m c t) (Blocks.blk1 m c t) (k0_pay2 (F := F))
    ∧ (outsAt0 m c t.val t.isLt).2.2 = k0_pay5 (Blocks.blk0 m c t) (Blocks.blk1 m c t) (k0_pay3 (F := F)) := by
  rw [outsAt0_A m c t h0 h1]
  dsimp only
  exact ⟨Pieces.sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (Blocks.blk0 m c t) (Blocks.blk1 m c t),
    Pieces.sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (Blocks.blk0 m c t) (Blocks.blk1 m c t)⟩

/-- After any later step: what the step before left, updated with the tile. -/
theorem scratch_next (c : Dev nD) (t : Fin cfg0.N) (h0 : ¬t.val % 8 = 0) :
    (outsAt0 m c t.val t.isLt).2.1 = k0_pay6 (Blocks.blk0 m c t) (Blocks.blk1 m c t) (outsAt0 m c (t.val - 1) (Nat.lt_of_le_of_lt (Nat.sub_le _ _) t.isLt)).2.1
    ∧ (outsAt0 m c t.val t.isLt).2.2 = k0_pay5 (Blocks.blk0 m c t) (Blocks.blk1 m c t) (outsAt0 m c (t.val - 1) (Nat.lt_of_le_of_lt (Nat.sub_le _ _) t.isLt)).2.2 := by
  by_cases h1 : t.val % 8 = 7
  · rw [outsAt0_C m c t h0 h1]
    dsimp only
    exact ⟨Pieces.sout_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2,
      Pieces.sout_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.sout_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2,
      Pieces.sout_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2⟩

/-- After the last step of a batch the output block is the final value computed from the two updated scratches. -/
theorem out_last (c : Dev nD) (t : Fin cfg0.N) (h1 : t.val % 8 = 7) :
    (outsAt0 m c t.val t.isLt).1 = k0_pay1 (outsAt0 m c t.val t.isLt).2.1 (outsAt0 m c t.val t.isLt).2.2 := by
  have h0 : ¬t.val % 8 = 0 := by omega
  rw [outsAt0_C m c t h0 h1]
  dsimp only
  exact (Pieces.out_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2).trans
    (congrArg₂ k0_pay1
      (Pieces.sout_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2).symm
      (Pieces.sout_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (Blocks.blk0 m c t) (Blocks.blk1 m c t) (outsAt0 m c (t.val - 1) (Nat.lt_of_le_of_lt (Nat.sub_le _ _) t.isLt)).2.1 (outsAt0 m c (t.val - 1) (Nat.lt_of_le_of_lt (Nat.sub_le _ _) t.isLt)).2.2).symm)

end Cert.Hausdorff.Steps
end
-- ==== Proof.LibSqrtMono.lean ====
/-
  The square root of the extended reals used at the ideal instance is monotone: it sends the bottom element and every
  negative real to the bottom element, a nonnegative real to its real square root, and the top element to itself. A
  monotone map of a linear order commutes with binary minimum and maximum, so a square root taken after a minimum or a
  maximum is the minimum or maximum of the square roots.
-/
import Idealize.ShloMosaic.PureOps.Ideal

namespace Idealize.ShloMosaic.Ideal

/-- The extended-real square root is monotone (the junk value at the negatives is the bottom element). -/
theorem sqrt_mono : Monotone Ideal.sqrt := by
  intro x y h
  induction x using EReal.rec with
  | bot => rw [Ideal.sqrt_bot]; exact bot_le
  | top =>
    have hy : y = ⊤ := top_le_iff.mp h
    subst hy; exact le_rfl
  | coe r =>
    induction y using EReal.rec with
    | bot => exact absurd h (by simp)
    | top => rw [Ideal.sqrt_top]; exact le_top
    | coe s =>
      have hrs : r ≤ s := EReal.coe_le_coe_iff.mp h
      rw [Ideal.sqrt_coe, Ideal.sqrt_coe]
      by_cases h1 : r < 0
      · rw [if_pos h1]; exact bot_le
      · have h2 : ¬ s < 0 := fun hs => h1 (lt_of_le_of_lt hrs hs)
        rw [if_neg h1, if_neg h2]
        exact EReal.coe_le_coe_iff.mpr (Real.sqrt_le_sqrt hrs)

/-- The square root of a maximum is the maximum of the square roots. -/
theorem sqrt_max (x y : EReal) : Ideal.sqrt (max x y) = max (Ideal.sqrt x) (Ideal.sqrt y) :=
  sqrt_mono.map_max

/-- The square root of a minimum is the minimum of the square roots. -/
theorem sqrt_min (x y : EReal) : Ideal.sqrt (min x y) = min (Ideal.sqrt x) (Ideal.sqrt y) :=
  sqrt_mono.map_min

end Idealize.ShloMosaic.Ideal
-- ==== Proof.LibFoldSupInf.lean ====
/-
  Folds of maximum from the bottom element and of minimum from the top element over a finite set of extended reals are
  the set's supremum and infimum; and the monotone square root, which fixes both the bottom and the top element, may be
  taken before or after a finite supremum or infimum.
-/
import proofs.«138596_j2044404433132_2_alg».proof.Proof.LibSqrtMono

namespace Idealize.ShloMosaic.Ideal

variable {ι : Type}

/-- A fold of `max` from `⊥` is the finite supremum. -/
theorem fold_max_bot_eq_sup (s : Finset ι) (f : ι → EReal) : s.fold max ⊥ f = s.sup f := rfl

/-- A fold of `min` from `⊤` is the finite infimum. -/
theorem fold_min_top_eq_inf (s : Finset ι) (f : ι → EReal) : s.fold min ⊤ f = s.inf f := rfl

/-- The square root of a finite supremum is the supremum of the square roots (the empty supremum `⊥` is fixed). -/
theorem sqrt_sup (s : Finset ι) (f : ι → EReal) : Ideal.sqrt (s.sup f) = s.sup fun i => Ideal.sqrt (f i) :=
  Finset.comp_sup_eq_sup_comp_of_is_total Ideal.sqrt sqrt_mono Ideal.sqrt_bot

/-- The square root of a finite infimum is the infimum of the square roots (the empty infimum `⊤` is fixed). -/
theorem sqrt_inf (s : Finset ι) (f : ι → EReal) : Ideal.sqrt (s.inf f) = s.inf fun i => Ideal.sqrt (f i) :=
  Finset.comp_inf_eq_inf_comp_of_is_total Ideal.sqrt sqrt_mono Ideal.sqrt_top

/-- The f32 pattern of plus infinity denotes the top element. -/
theorem ofBits_pinf_f32 : Ideal.ofBits .f32 0x7F800000#32 = ⊤ := by simp [Ideal.ofBits, Ideal.ieee]

/-- The f32 pattern of minus infinity denotes the bottom element. -/
theorem ofBits_ninf_f32 : Ideal.ofBits .f32 0xFF800000#32 = ⊥ := by simp [Ideal.ofBits, Ideal.ieee]

end Idealize.ShloMosaic.Ideal
-- ==== Proof.Spec.lean ====
/-
  The symmetric Hausdorff score of two clouds of 4096 planar points, for each of 8 batches, as one function of the two
  argument arrays (each of shape 8 × 4096 × 2: batch, point, coordinate).

  For a batch `b`, `d2 b i j` is the squared Euclidean distance between point `i` of the first cloud and point `j` of the
  second. The directed term from the first cloud to the second is the largest, over `i`, of the smallest, over `j`, of
  these; the other directed term exchanges the roles. The score of the batch is the square root of the larger of the two
  directed terms. Because the square root is monotone, it does not matter whether it is taken of every distance before
  the minima and maxima or once at the end.
-/
import Idealize.ShloMosaic.Lib.ValueIdx
import proofs.«138596_j2044404433132_2_alg».proof.Proof.LibFoldSupInf

noncomputable section

namespace Cert.Hausdorff

open Idealize.ShloMosaic Idealize.ShloMosaic.ValueIdx

/-- An array of 8 batches of 4096 planar points, over the extended reals. -/
abbrev Pts := (⟨3, ![8, 4096, 2]⟩ : Shape).Idx → EReal

/-- The squared distance between point `i` of `P` and point `j` of `T` in batch `b`. -/
def d2 (P T : Pts) (b : Fin 8) (i j : Fin 4096) : EReal :=
  (P (ix3 b i (0 : Fin 2)) - T (ix3 b j (0 : Fin 2))) * (P (ix3 b i (0 : Fin 2)) - T (ix3 b j (0 : Fin 2)))
    + (P (ix3 b i (1 : Fin 2)) - T (ix3 b j (1 : Fin 2))) * (P (ix3 b i (1 : Fin 2)) - T (ix3 b j (1 : Fin 2)))

/-- The squared directed term from `P` to `T`: the largest over `i` of the smallest over `j`. -/
def hab2 (P T : Pts) (b : Fin 8) : EReal :=
  Finset.univ.sup fun i : Fin 4096 => Finset.univ.inf fun j : Fin 4096 => d2 P T b i j

/-- The squared directed term from `T` to `P`: the largest over `j` of the smallest over `i`. -/
def hba2 (P T : Pts) (b : Fin 8) : EReal :=
  Finset.univ.sup fun j : Fin 4096 => Finset.univ.inf fun i : Fin 4096 => d2 P T b i j

/-- The symmetric Hausdorff score of batch `b`. -/
def score (P T : Pts) (b : Fin 8) : EReal := Ideal.sqrt (max (hab2 P T b) (hba2 P T b))

/-- The scores of the 8 batches as a vector. -/
def scores (P T : Pts) : (⟨1, ![8]⟩ : Shape).Idx → EReal := fun i => score P T (i 0)

/-- The mean of a vector of 8 entries as both programs compute it: a sum from zero, divided by eight. -/
def mean8 (h : (⟨1, ![8]⟩ : Shape).ReducesTo [0] ⟨0, ![]⟩) (hu : 0 < (⟨0, ![]⟩ : Shape).numel)
    (v : (⟨1, ![8]⟩ : Shape).Idx → EReal) : (⟨0, ![]⟩ : Shape).Idx → EReal :=
  Host.divf (F := Ideal) (φ := .f32) (Host.reduceAdd (F := Ideal) (φ := .f32) v (constant (F := Ideal) ⟨0, ![]⟩ .f32 0x00000000#32) h hu)
    (constant (F := Ideal) ⟨0, ![]⟩ .f32 0x41000000#32)

end Cert.Hausdorff

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.KPayload.lean ====
/-
  The arithmetic of the kernel body read at one index, at the ideal values (an element an extended real, every
  operation exact).

  One grid step sees 512 points of the first cloud (an array of shape 1 × 512 × 2) and the 4096 points of the second
  (an array of shape 1 × 2 × 4096, coordinate before point). It forms the 512 × 4096 table of squared distances: the
  entry at row r and column j is the sum over the two coordinates of the squared difference of point r of the first
  block and point j of the second cloud. From the table it takes
  • per column the minimum over the 512 rows, and lowers a running per-column minimum by it;
  • per row the minimum over the 4096 columns, then the maximum of these over the rows, and raises a running maximum
    by it.
  The running per-column minimum starts from plus infinity (the top element) and the running maximum from minus
  infinity (the bottom element). At the last step the score is the square root of the larger of the running maximum
  and the maximum over the columns of the running per-column minima.

  Each statement below reads one of these values at explicit coordinates. A reduction with the combining operation
  maximum started from the bottom element is a finite supremum; one with minimum started from the top element is a
  finite infimum.
-/
import proofs.«138596_j2044404433132_2_alg».proof.Proof.Gen.KernelIdeal.Skeleton
import proofs.«138596_j2044404433132_2_alg».proof.Proof.Spec
import proofs.«138596_j2044404433132_2_alg».proof.Proof.LibColumn
import Idealize.ShloMosaic.Lib.ValueIdx
import Idealize.ShloMosaic.Lib.ValueLayout
import Idealize.ShloMosaic.Lib.Pipeline.Value
import Idealize.ShloMosaic.PureOps.Ideal.Laws

namespace Cert.Hausdorff.Payload

open Idealize.ShloMosaic Idealize.ShloMosaic.ValueIdx Cert.KernelIdeal Cert.KernelIdeal.Gen

/-- The table of squared distances at row `r` and column `j`: each of the four operands is one coordinate of one
    point, found through the broadcast, the unit-width slice and the dropped leading unit axis. -/
theorem pay4_apply (x0 : Vec Ideal S1x512x2 .f32) (x1 : Vec Ideal S1x2x4096 .f32) (r : Fin 512) (j : Fin 4096) :
    k0_pay4 (F := Ideal) x0 x1 (ix2 r j)
      = (x0 (ix3 (0 : Fin 1) r (0 : Fin 2)) - x1 (ix3 (0 : Fin 1) (0 : Fin 2) j)) * (x0 (ix3 (0 : Fin 1) r (0 : Fin 2)) - x1 (ix3 (0 : Fin 1) (0 : Fin 2) j))
        + (x0 (ix3 (0 : Fin 1) r (1 : Fin 2)) - x1 (ix3 (0 : Fin 1) (1 : Fin 2) j)) * (x0 (ix3 (0 : Fin 1) r (1 : Fin 2)) - x1 (ix3 (0 : Fin 1) (1 : Fin 2) j)) := by
  -- column `c` of the first block, repeated along the second axis, reads coordinate `c` of point `r`
  have hA0 : broadcastTo S512x4096
      (extractStridedSlice S512x1 ![0, 0] (shapeCast S512x2 x0 shapeCasts_S1x512x2_S512x2) slices_S512x2_o0_0_S512x1)
      broadcasts_S512x1_S512x4096 (ix2 r j) = x0 (ix3 (0 : Fin 1) r (0 : Fin 2)) :=
    (Cert.Lib.Column.broadcastTo_a1_ab_apply _ _ r j).trans
      ((slice2_axis1_apply 0 _ _ r (0 : Fin 1) (0 : Fin 2) rfl).trans (shapeCast_1ab_ab_apply x0 _ r (0 : Fin 2)))
  have hA1 : broadcastTo S512x4096
      (extractStridedSlice S512x1 ![0, 1] (shapeCast S512x2 x0 shapeCasts_S1x512x2_S512x2) slices_S512x2_o0_1_S512x1)
      broadcasts_S512x1_S512x4096 (ix2 r j) = x0 (ix3 (0 : Fin 1) r (1 : Fin 2)) :=
    (Cert.Lib.Column.broadcastTo_a1_ab_apply _ _ r j).trans
      ((slice2_axis1_apply 1 _ _ r (0 : Fin 1) (1 : Fin 2) rfl).trans (shapeCast_1ab_ab_apply x0 _ r (1 : Fin 2)))
  -- row `c` of the second cloud, repeated along the first axis, reads coordinate `c` of point `j`
  have hB0 : broadcastTo S512x4096
      (extractStridedSlice S1x4096 ![0, 0] (shapeCast S2x4096 x1 shapeCasts_S1x2x4096_S2x4096) slices_S2x4096_o0_0_S1x4096)
      broadcasts_S1x4096_S512x4096 (ix2 r j) = x1 (ix3 (0 : Fin 1) (0 : Fin 2) j) :=
    (broadcastTo_1b_ab_apply _ _ r j).trans
      ((slice2_axis0_apply 0 _ _ (0 : Fin 1) j (0 : Fin 2) rfl).trans (shapeCast_1ab_ab_apply x1 _ (0 : Fin 2) j))
  have hB1 : broadcastTo S512x4096
      (extractStridedSlice S1x4096 ![1, 0] (shapeCast S2x4096 x1 shapeCasts_S1x2x4096_S2x4096) slices_S2x4096_o1_0_S1x4096)
      broadcasts_S1x4096_S512x4096 (ix2 r j) = x1 (ix3 (0 : Fin 1) (1 : Fin 2) j) :=
    (broadcastTo_1b_ab_apply _ _ r j).trans
      ((slice2_axis0_apply 1 _ _ (0 : Fin 1) j (1 : Fin 2) rfl).trans (shapeCast_1ab_ab_apply x1 _ (1 : Fin 2) j))
  unfold k0_pay4
  simp only [addf_apply, mulf_apply, subf_apply]
  rw [hA0, hA1, hB0, hB1]

/-- A reduction by minimum over one axis, read at the ideal values: the fold of `min` from the accumulator's value over
    that axis's coordinates, in any order because `min` is commutative and associative. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A reduction by minimum over one axis whose accumulator is plus infinity is the infimum over that axis's
    coordinates: the fold starts from the top element. -/
theorem multiReduction_minimumf_pinf_single {s t : Shape} {a : Fin s.rank} (src : FVec Ideal s .f32)
    (h : s.Reduces [a] t) (hφ : FKind.Formats .f32) (hacc : (0x7F800000#32 : BitVec FTy.f32.bits) = FKind.minimumf.neutral .f32 hφ)
    (j : t.Idx) :
    multiReduction .minimumf [a] t src 0x7F800000#32 h hφ hacc j
      = (Finset.univ : Finset (Fin (s.size a))).inf fun k => src (h.lift j k) := by
  rw [multiReduction_minimumf_single, Ideal.ofBits_def, Ideal.ofBits_pinf_f32]
  rfl

/-- A reduction by maximum over one axis whose accumulator is minus infinity is the supremum over that axis's
    coordinates: the fold starts from the bottom element. -/
theorem multiReduction_maximumf_ninf_single {s t : Shape} {a : Fin s.rank} (src : FVec Ideal s .f32)
    (h : s.Reduces [a] t) (hφ : FKind.Formats .f32) (hacc : (0xFF800000#32 : BitVec FTy.f32.bits) = FKind.maximumf.neutral .f32 hφ)
    (j : t.Idx) :
    multiReduction .maximumf [a] t src 0xFF800000#32 h hφ hacc j
      = (Finset.univ : Finset (Fin (s.size a))).sup fun k => src (h.lift j k) := by
  rw [Ideal.multiReduction_maximumf_single, Ideal.ofBits_def, Ideal.ofBits_ninf_f32]
  rfl

/-- The square root of a vector reads, at an index, the square root of the element. -/
theorem sqrt_apply {s : Shape} {φ : FTy} (v : FVec Ideal s φ) (i : s.Idx) : sqrt v i = Ideal.sqrt (v i) := rfl

/-- The per-column minimum over the 512 rows of the table, as a finite infimum: the row coordinate inserted before
    the column coordinate `j` gives the table's index `(r, j)`. -/
theorem colMin_apply (x0 : Vec Ideal S1x512x2 .f32) (x1 : Vec Ideal S1x2x4096 .f32) (j : Fin 4096) :
    multiReduction (F := Ideal) .minimumf [0] S4096 (k0_pay4 (F := Ideal) x0 x1) 0x7F800000#32 reduces_S512x4096_S4096 (.inl rfl) rfl (ix1 j)
      = Finset.univ.inf fun r : Fin 512 => k0_pay4 (F := Ideal) x0 x1 (ix2 r j) := by
  refine (multiReduction_minimumf_pinf_single (k0_pay4 (F := Ideal) x0 x1) reduces_S512x4096_S4096 _ _ (ix1 j)).trans ?_
  show (Finset.univ : Finset (Fin 512)).inf
      (fun r => k0_pay4 (F := Ideal) x0 x1 (reduces_S512x4096_S4096.lift (ix1 j) r)) = _
  refine congrArg (Finset.univ.inf) (funext fun r => congrArg (k0_pay4 (F := Ideal) x0 x1) ?_)
  funext a
  exact Fin.ext (by match a with | ⟨0, _⟩ => rfl | ⟨1, _⟩ => rfl)

/-- The running per-column minimum after one step: the value before, lowered by the column's minimum over the rows. -/
theorem pay6_apply (x0 : Vec Ideal S1x512x2 .f32) (x1 : Vec Ideal S1x2x4096 .f32) (xs0 : Vec Ideal S1x4096 .f32) (j : Fin 4096) :
    k0_pay6 (F := Ideal) x0 x1 xs0 (ix2 (0 : Fin 1) j)
      = min (xs0 (ix2 (0 : Fin 1) j)) (Finset.univ.inf fun r : Fin 512 => k0_pay4 (F := Ideal) x0 x1 (ix2 r j)) := by
  unfold k0_pay6
  simp only [shapeCast_self, minimumf_apply]
  exact congrArg (min (xs0 (ix2 (0 : Fin 1) j))) ((shapeCast_a_1a_apply _ _ (0 : Fin 1) j).trans (colMin_apply x0 x1 j))

/-- The per-row minimum over the 4096 columns of the table, as a finite infimum: the column coordinate inserted after
    the row coordinate `r` gives the table's index `(r, j)`. -/
theorem rowMin_apply (x0 : Vec Ideal S1x512x2 .f32) (x1 : Vec Ideal S1x2x4096 .f32) (r : Fin 512) :
    multiReduction (F := Ideal) .minimumf [1] S512 (k0_pay4 (F := Ideal) x0 x1) 0x7F800000#32 reduces_S512x4096_S512 (.inl rfl) rfl (ix1 r)
      = Finset.univ.inf fun j : Fin 4096 => k0_pay4 (F := Ideal) x0 x1 (ix2 r j) := by
  refine (multiReduction_minimumf_pinf_single (k0_pay4 (F := Ideal) x0 x1) reduces_S512x4096_S512 _ _ (ix1 r)).trans ?_
  show (Finset.univ : Finset (Fin 4096)).inf
      (fun j => k0_pay4 (F := Ideal) x0 x1 (reduces_S512x4096_S512.lift (ix1 r) j)) = _
  refine congrArg (Finset.univ.inf) (funext fun j => congrArg (k0_pay4 (F := Ideal) x0 x1) ?_)
  funext a
  exact Fin.ext (by match a with | ⟨0, _⟩ => rfl | ⟨1, _⟩ => rfl)

/-- The maximum over the 512 rows of a column vector, as a finite supremum of its entries. -/
theorem colMax_apply (v : FVec Ideal S512x1 .f32) :
    multiReduction (F := Ideal) .maximumf [0] S1 v 0xFF800000#32 reduces_S512x1_S1 (.inl rfl) rfl (ix1 (0 : Fin 1))
      = Finset.univ.sup fun r : Fin 512 => v (ix2 r (0 : Fin 1)) := by
  refine (multiReduction_maximumf_ninf_single v reduces_S512x1_S1 _ _ (ix1 (0 : Fin 1))).trans ?_
  show (Finset.univ : Finset (Fin 512)).sup (fun r => v (reduces_S512x1_S1.lift (ix1 (0 : Fin 1)) r)) = _
  refine congrArg (Finset.univ.sup) (funext fun r => congrArg v ?_)
  funext a
  exact Fin.ext (by match a with | ⟨0, _⟩ => rfl | ⟨1, _⟩ => rfl)

/-- The running maximum after one step: the value before, raised by the largest over the rows of the row minima. -/
theorem pay5_apply (x0 : Vec Ideal S1x512x2 .f32) (x1 : Vec Ideal S1x2x4096 .f32) (xs1 : Vec Ideal S1x1 .f32) :
    k0_pay5 (F := Ideal) x0 x1 xs1 (ix2 (0 : Fin 1) (0 : Fin 1))
      = max (xs1 (ix2 (0 : Fin 1) (0 : Fin 1))) (Finset.univ.sup fun r : Fin 512 => Finset.univ.inf fun j : Fin 4096 => k0_pay4 (F := Ideal) x0 x1 (ix2 r j)) := by
  unfold k0_pay5
  simp only [shapeCast_self, maximumf_apply]
  refine congrArg (max (xs1 (ix2 (0 : Fin 1) (0 : Fin 1)))) ?_
  refine (shapeCast_a_1a_apply _ _ (0 : Fin 1) (0 : Fin 1)).trans ?_
  refine (colMax_apply _).trans ?_
  refine congrArg (Finset.univ.sup) (funext fun r => ?_)
  exact (Cert.Lib.Column.shapeCast_a_a1_apply _ _ r (0 : Fin 1)).trans (rowMin_apply x0 x1 r)

/-- The maximum over the 4096 columns of a one-row array, as a finite supremum of its entries. -/
theorem rowMax_apply (v : FVec Ideal S1x4096 .f32) :
    multiReduction (F := Ideal) .maximumf [1] S1 v 0xFF800000#32 reduces_S1x4096_S1 (.inl rfl) rfl (ix1 (0 : Fin 1))
      = Finset.univ.sup fun j : Fin 4096 => v (ix2 (0 : Fin 1) j) := by
  refine (multiReduction_maximumf_ninf_single v reduces_S1x4096_S1 _ _ (ix1 (0 : Fin 1))).trans ?_
  show (Finset.univ : Finset (Fin 4096)).sup (fun j => v (reduces_S1x4096_S1.lift (ix1 (0 : Fin 1)) j)) = _
  refine congrArg (Finset.univ.sup) (funext fun j => congrArg v ?_)
  funext a
  exact Fin.ext (by match a with | ⟨0, _⟩ => rfl | ⟨1, _⟩ => rfl)

/-- The score written at the last step: the square root of the larger of the running maximum and the largest of the
    running per-column minima. -/
theorem pay1_apply (v39 : Vec Ideal S1x4096 .f32) (v42 : Vec Ideal S1x1 .f32) :
    k0_pay1 (F := Ideal) v39 v42 (ix3 (0 : Fin 1) (0 : Fin 1) (0 : Fin 1))
      = Ideal.sqrt (max (v42 (ix2 (0 : Fin 1) (0 : Fin 1))) (Finset.univ.sup fun j : Fin 4096 => v39 (ix2 (0 : Fin 1) j))) := by
  unfold k0_pay1
  refine (shapeCast_ab_1ab_apply _ _ (0 : Fin 1) (0 : Fin 1) (0 : Fin 1)).trans ?_
  rw [sqrt_apply, maximumf_apply]
  refine congrArg (fun z => Ideal.sqrt (max (v42 (ix2 (0 : Fin 1) (0 : Fin 1))) z)) ?_
  exact (shapeCast_a_1a_apply _ _ (0 : Fin 1) (0 : Fin 1)).trans (rowMax_apply v39)

/-- The running per-column minimum is started from plus infinity, the top element. -/
theorem pay2_apply (j : Fin 4096) : k0_pay2 (F := Ideal) (ix2 (0 : Fin 1) j) = ⊤ := by
  unfold k0_pay2
  simp only [shapeCast_self, broadcast_apply]
  exact Ideal.ofBits_pinf_f32

/-- The running maximum is started from minus infinity, the bottom element. -/
theorem pay3_apply : k0_pay3 (F := Ideal) (ix2 (0 : Fin 1) (0 : Fin 1)) = ⊥ := by
  unfold k0_pay3
  simp only [shapeCast_self, broadcast_apply]
  exact Ideal.ofBits_ninf_f32

end Cert.Hausdorff.Payload
-- ==== Proof.LibPrefixInfSup.lean ====
/-
  Infima and suprema over an initial segment of `Fin N`, extended one block at a time.

  For a family `f` of extended reals indexed by `Fin N`, the infimum over the indices below `k + B` is the minimum of the
  infimum over the indices below `k` and the infimum over the block of `B` consecutive indices starting at `k`; likewise for
  suprema and maxima. The segment below `0` is empty (infimum `⊤`, supremum `⊥`); the segment below `N` is everything.
  This is what a running minimum or maximum accumulated block by block computes.
-/
import Mathlib.Data.Finset.Lattice.Fold
import Mathlib.Data.EReal.Basic
import Mathlib.Data.Fintype.Basic

namespace Cert.Lib.Prefix

variable {N : ℕ}

/-- The indices of `Fin N` below `k`. -/
def below (N k : ℕ) : Finset (Fin N) := Finset.univ.filter fun i : Fin N => i.val < k

theorem mem_below {k : ℕ} {i : Fin N} : i ∈ below N k ↔ i.val < k := by
  unfold below; rw [Finset.mem_filter]; exact ⟨fun h => h.2, fun h => ⟨Finset.mem_univ _, h⟩⟩

theorem below_zero : below N 0 = ∅ :=
  Finset.filter_false_of_mem fun i _ => Nat.not_lt_zero _

theorem below_full : below N N = Finset.univ :=
  Finset.filter_true_of_mem fun i _ => i.isLt

/-- Index `k + r` of the block of `B` indices starting at `k`. -/
def blockIdx (k B : ℕ) (h : k + B ≤ N) (r : Fin B) : Fin N :=
  ⟨k + r.val, lt_of_lt_of_le (Nat.add_lt_add_left r.isLt k) h⟩

theorem blockIdx_val (k B : ℕ) (h : k + B ≤ N) (r : Fin B) : (blockIdx k B h r).val = k + r.val := rfl

theorem inf_below_zero (f : Fin N → EReal) : (below N 0).inf f = ⊤ := by rw [below_zero, Finset.inf_empty]

theorem sup_below_zero (f : Fin N → EReal) : (below N 0).sup f = ⊥ := by rw [below_zero, Finset.sup_empty]

/-- The infimum over the segment below `k + B`: the segment below `k`, then the block. -/
theorem inf_below_add (f : Fin N → EReal) (k B : ℕ) (h : k + B ≤ N) :
    (below N (k + B)).inf f = min ((below N k).inf f) (Finset.univ.inf fun r : Fin B => f (blockIdx k B h r)) := by
  apply le_antisymm
  · apply le_min
    · apply Finset.le_inf; intro i hi
      exact Finset.inf_le (mem_below.mpr (by have := mem_below.mp hi; omega))
    · apply Finset.le_inf; intro r _
      exact Finset.inf_le (mem_below.mpr (by rw [blockIdx_val]; have := r.isLt; omega))
  · apply Finset.le_inf; intro i hi
    have hi' : i.val < k + B := mem_below.mp hi
    by_cases hik : i.val < k
    · exact (min_le_left _ _).trans (Finset.inf_le (mem_below.mpr hik))
    · have hr : i.val - k < B := by omega
      have e : blockIdx k B h ⟨i.val - k, hr⟩ = i := Fin.ext (by rw [blockIdx_val]; show k + (i.val - k) = i.val; omega)
      exact ((min_le_right _ _).trans
        (Finset.inf_le (f := fun r : Fin B => f (blockIdx k B h r)) (Finset.mem_univ (⟨i.val - k, hr⟩ : Fin B)))).trans
        (congrArg f e).le

/-- The supremum over the segment below `k + B`: the segment below `k`, then the block. -/
theorem sup_below_add (f : Fin N → EReal) (k B : ℕ) (h : k + B ≤ N) :
    (below N (k + B)).sup f = max ((below N k).sup f) (Finset.univ.sup fun r : Fin B => f (blockIdx k B h r)) := by
  apply le_antisymm
  · apply Finset.sup_le; intro i hi
    have hi' : i.val < k + B := mem_below.mp hi
    by_cases hik : i.val < k
    · exact (Finset.le_sup (f := f) (mem_below.mpr hik)).trans (le_max_left _ _)
    · have hr : i.val - k < B := by omega
      have e : blockIdx k B h ⟨i.val - k, hr⟩ = i := Fin.ext (by rw [blockIdx_val]; show k + (i.val - k) = i.val; omega)
      exact (congrArg f e).ge.trans
        ((Finset.le_sup (f := fun r : Fin B => f (blockIdx k B h r)) (Finset.mem_univ (⟨i.val - k, hr⟩ : Fin B))).trans
          (le_max_right _ _))
  · apply max_le
    · apply Finset.sup_le; intro i hi
      exact Finset.le_sup (f := f) (mem_below.mpr (by have := mem_below.mp hi; omega))
    · apply Finset.sup_le; intro r _
      exact Finset.le_sup (f := f) (mem_below.mpr (by rw [blockIdx_val]; have := r.isLt; omega))

theorem inf_below_full (f : Fin N → EReal) : (below N N).inf f = Finset.univ.inf f := by rw [below_full]

theorem sup_below_full (f : Fin N → EReal) : (below N N).sup f = Finset.univ.sup f := by rw [below_full]

end Cert.Lib.Prefix
-- ==== Proof.KInvariant.lean ====
/-
  The running minima and maxima the kernel carries across the eight steps of a batch, at the ideal instance.

  Write `P`, `T` for the two argument arrays and `b = t / 8`, `n = t % 8` for the batch and step of grid position `t`. The
  tile computed at `t` holds the squared distances between rows `512 n + r` of `P` and all 4096 points of `T` in batch `b`.
  After position `t`,
    • entry `j` of the column-minimum scratch is the smallest squared distance from point `j` of `T` to the points of `P`
      with index below `512 (n + 1)`;
    • the running maximum is the largest, over those points of `P`, of the smallest squared distance to a point of `T`.
  Both follow by induction on the position from the block-by-block law for infima and suprema over an initial segment:
  a reset to plus (minus) infinity is the empty infimum (supremum). After the last step the segment is everything, and the
  output block is the square root of the larger of the two directed terms: the batch's score.
-/
import proofs.«138596_j2044404433132_2_alg».proof.Proof.Gen.KernelIdeal.Frame
import Idealize.ShloMosaic.Lib.Pipeline.Value
import Idealize.ShloMosaic.Lib.Tactic
import proofs.«138596_j2044404433132_2_alg».proof.Proof.KSteps
import proofs.«138596_j2044404433132_2_alg».proof.Proof.KBlocks
import proofs.«138596_j2044404433132_2_alg».proof.Proof.KPayload
import proofs.«138596_j2044404433132_2_alg».proof.Proof.LibPrefixInfSup
import proofs.«138596_j2044404433132_2_alg».proof.Proof.Spec

noncomputable section

open Idealize.ShloMosaic Idealize.ShloMosaic.TcCoe Idealize.SL.Sem
open Idealize.ShloMosaic.Pipeline (Dat)

namespace Cert.Hausdorff.Inv
open Cert.KernelIdeal Cert.KernelIdeal.Gen Idealize.ShloMosaic.ValueIdx Cert.Hausdorff Cert.Lib.Prefix
variable (m : (ℓ : Loc nD τ sig) → Buf (Elt Ideal) ℓ)

/-- The two argument arrays as the kernel is launched with them. -/
abbrev P (c : Dev nD) : Pts := m ((c : Thread nD τ).loc main_arg0)
abbrev T (c : Dev nD) : Pts := m ((c : Thread nD τ).loc main_arg1)

/-- A step's 512 rows fit in the 4096. -/
theorem rows_le (k : ℕ) : 512 * (k % 8) + 512 ≤ 4096 := by omega

/-- The tile at position `t`: squared distances from rows `512 (t % 8) + r` of `P` to the points of `T`, in batch `t / 8`. -/
theorem tile_apply (c : Dev nD) (t : Fin cfg0.N) (b : Fin 8) (hb : b.val = t.val / 8) (r : Fin 512) (j : Fin 4096) :
    k0_pay4 (F := Ideal) (Blocks.blk0 m c t) (Blocks.blk1 m c t) (ix2 r j)
      = d2 (P m c) (T m c) b (blockIdx (512 * (t.val % 8)) 512 (rows_le t.val) r) j := by
  refine (Payload.pay4_apply (Blocks.blk0 m c t) (Blocks.blk1 m c t) r j).trans ?_
  unfold d2
  rw [Blocks.blk0_apply m c t r (0 : Fin 2) b (blockIdx (512 * (t.val % 8)) 512 (rows_le t.val) r) hb rfl,
    Blocks.blk0_apply m c t r (1 : Fin 2) b (blockIdx (512 * (t.val % 8)) 512 (rows_le t.val) r) hb rfl,
    Blocks.blk1_apply m c t (0 : Fin 2) j b hb, Blocks.blk1_apply m c t (1 : Fin 2) j b hb]

/-- The column-minimum update at position `t`, over any previous contents. -/
theorem colmin_step (c : Dev nD) (t : Fin cfg0.N) (b : Fin 8) (hb : b.val = t.val / 8) (xs0 : Vec Ideal S1x4096 .f32) (j : Fin 4096) :
    k0_pay6 (F := Ideal) (Blocks.blk0 m c t) (Blocks.blk1 m c t) xs0 (ix2 (0 : Fin 1) j)
      = min (xs0 (ix2 (0 : Fin 1) j))
          (Finset.univ.inf fun r : Fin 512 => d2 (P m c) (T m c) b (blockIdx (512 * (t.val % 8)) 512 (rows_le t.val) r) j) :=
  (Payload.pay6_apply (Blocks.blk0 m c t) (Blocks.blk1 m c t) xs0 j).trans
    (congrArg (min (xs0 (ix2 (0 : Fin 1) j))) (Finset.inf_congr rfl fun r _ => tile_apply m c t b hb r j))

/-- The running-maximum update at position `t`, over any previous contents. -/
theorem rowmax_step (c : Dev nD) (t : Fin cfg0.N) (b : Fin 8) (hb : b.val = t.val / 8) (xs1 : Vec Ideal S1x1 .f32) :
    k0_pay5 (F := Ideal) (Blocks.blk0 m c t) (Blocks.blk1 m c t) xs1 (ix2 (0 : Fin 1) (0 : Fin 1))
      = max (xs1 (ix2 (0 : Fin 1) (0 : Fin 1)))
          (Finset.univ.sup fun r : Fin 512 => Finset.univ.inf fun j : Fin 4096 =>
            d2 (P m c) (T m c) b (blockIdx (512 * (t.val % 8)) 512 (rows_le t.val) r) j) :=
  (Payload.pay5_apply (Blocks.blk0 m c t) (Blocks.blk1 m c t) xs1).trans
    (congrArg (max (xs1 (ix2 (0 : Fin 1) (0 : Fin 1))))
      (Finset.sup_congr rfl fun r _ => Finset.inf_congr rfl fun j _ => tile_apply m c t b hb r j))

/-- The smallest squared distance from point `j` of `T` to the points of `P` with index below `k`. -/
def colMinUpTo (c : Dev nD) (b : Fin 8) (k : ℕ) (j : Fin 4096) : EReal :=
  (below 4096 k).inf fun i => d2 (P m c) (T m c) b i j

/-- The largest, over the points of `P` with index below `k`, of the smallest squared distance to a point of `T`. -/
def rowMaxUpTo (c : Dev nD) (b : Fin 8) (k : ℕ) : EReal :=
  (below 4096 k).sup fun i => Finset.univ.inf fun j : Fin 4096 => d2 (P m c) (T m c) b i j

theorem colMinUpTo_add (c : Dev nD) (b : Fin 8) (k : ℕ) (h : k + 512 ≤ 4096) (j : Fin 4096) :
    colMinUpTo m c b (k + 512) j
      = min (colMinUpTo m c b k j) (Finset.univ.inf fun r : Fin 512 => d2 (P m c) (T m c) b (blockIdx k 512 h r) j) :=
  inf_below_add (fun i => d2 (P m c) (T m c) b i j) k 512 h

theorem rowMaxUpTo_add (c : Dev nD) (b : Fin 8) (k : ℕ) (h : k + 512 ≤ 4096) :
    rowMaxUpTo m c b (k + 512)
      = max (rowMaxUpTo m c b k) (Finset.univ.sup fun r : Fin 512 => Finset.univ.inf fun j : Fin 4096 =>
          d2 (P m c) (T m c) b (blockIdx k 512 h r) j) :=
  sup_below_add (fun i => Finset.univ.inf fun j : Fin 4096 => d2 (P m c) (T m c) b i j) k 512 h

/-- The invariant after position `t`, stated over whatever the position before left. -/
def Holds (c : Dev nD) (k : ℕ) (hk : k < cfg0.N) (b : Fin 8) (rows : ℕ) : Prop :=
  (∀ j : Fin 4096, (outsAt0 m c k hk).2.1 (ix2 (0 : Fin 1) j) = colMinUpTo m c b rows j)
    ∧ (outsAt0 m c k hk).2.2 (ix2 (0 : Fin 1) (0 : Fin 1)) = rowMaxUpTo m c b rows

/-- First step of a batch. -/
theorem holds_first (c : Dev nD) (t : Fin cfg0.N) (h0 : t.val % 8 = 0) (b : Fin 8) (hb : b.val = t.val / 8) :
    Holds m c t.val t.isLt b (512 * (t.val % 8) + 512) := by
  have h1 : ¬t.val % 8 = 7 := by omega
  obtain ⟨e0, e1⟩ := Steps.scratch_first m c t h0 h1
  have hz : 512 * (t.val % 8) = 0 := by omega
  refine ⟨fun j => ?_, ?_⟩
  · rw [e0]
    refine (colmin_step m c t b hb _ j).trans ?_
    rw [Payload.pay2_apply j, colMinUpTo_add m c b (512 * (t.val % 8)) (rows_le t.val) j]
    have hz' : colMinUpTo m c b (512 * (t.val % 8)) j = ⊤ := by
      unfold colMinUpTo; rw [hz]; exact inf_below_zero _
    rw [hz']
  · rw [e1]
    refine (rowmax_step m c t b hb _).trans ?_
    rw [Payload.pay3_apply, rowMaxUpTo_add m c b (512 * (t.val % 8)) (rows_le t.val)]
    have hz' : rowMaxUpTo m c b (512 * (t.val % 8)) = ⊥ := by
      unfold rowMaxUpTo; rw [hz]; exact sup_below_zero _
    rw [hz']

/-- A later step of a batch, from the invariant at the position before. -/
theorem holds_next (c : Dev nD) (t : Fin cfg0.N) (h0 : ¬t.val % 8 = 0) (b : Fin 8) (hb : b.val = t.val / 8)
    (hp : Holds m c (t.val - 1) (Nat.lt_of_le_of_lt (Nat.sub_le _ _) t.isLt) b (512 * (t.val % 8))) :
    Holds m c t.val t.isLt b (512 * (t.val % 8) + 512) := by
  obtain ⟨e0, e1⟩ := Steps.scratch_next m c t h0
  refine ⟨fun j => ?_, ?_⟩
  · rw [e0]
    refine (colmin_step m c t b hb _ j).trans ?_
    rw [hp.1 j, colMinUpTo_add m c b (512 * (t.val % 8)) (rows_le t.val) j]
  · rw [e1]
    refine (rowmax_step m c t b hb _).trans ?_
    rw [hp.2, rowMaxUpTo_add m c b (512 * (t.val % 8)) (rows_le t.val)]

/-- The invariant at every position, by induction on the position. -/
theorem holds (c : Dev nD) : ∀ (k : ℕ) (hk : k < cfg0.N) (b : Fin 8), b.val = k / 8 → Holds m c k hk b (512 * (k % 8) + 512) := by
  intro k
  induction k with
  | zero => intro hk b hb; exact holds_first m c ⟨0, hk⟩ rfl b hb
  | succ k ih =>
    intro hk b hb
    by_cases h0 : (k + 1) % 8 = 0
    · exact holds_first m c ⟨k + 1, hk⟩ h0 b hb
    · have hb' : b.val = k / 8 := by omega
      have hrows : 512 * (k % 8) + 512 = 512 * ((k + 1) % 8) := by omega
      have hp := ih (Nat.lt_of_succ_lt hk) b hb'
      rw [hrows] at hp
      exact holds_next m c ⟨k + 1, hk⟩ h0 b hb hp

/-- After the last step of a batch the output block holds the batch's score. -/
theorem out_score (c : Dev nD) (t : Fin cfg0.N) (h1 : t.val % 8 = 7) (b : Fin 8) (hb : b.val = t.val / 8) :
    (outsAt0 m c t.val t.isLt).1 (ix3 (0 : Fin 1) (0 : Fin 1) (0 : Fin 1)) = score (P m c) (T m c) b := by
  obtain ⟨i0, i1⟩ := holds m c t.val t.isLt b hb
  have hfull : 512 * (t.val % 8) + 512 = 4096 := by omega
  rw [Steps.out_last m c t h1]
  refine (Payload.pay1_apply _ _).trans ?_
  rw [i1, hfull]
  have hcol : (fun j : Fin 4096 => (outsAt0 m c t.val t.isLt).2.1 (ix2 (0 : Fin 1) j))
      = fun j : Fin 4096 => colMinUpTo m c b 4096 j := funext fun j => by rw [i0 j, hfull]
  rw [hcol]
  unfold score hab2 hba2 rowMaxUpTo colMinUpTo
  rw [sup_below_full]
  simp only [inf_below_full]

end Cert.Hausdorff.Inv
end
-- ==== Proof.KFinal.lean ====
/-
  The result array of the kernel's grid, at the ideal instance: entry `b` is the score of batch `b`.

  The output window's block at position `t` is entry `t / 8` of the 8 × 1 × 1 result, and it is written back only after the
  last step of a batch (`t % 8 = 7`), when it holds the batch's score. The eight write-backs, at positions `8 b + 7`, cover
  the eight entries, so the array ends holding the eight scores.
-/
import proofs.«138596_j2044404433132_2_alg».proof.Proof.Gen.KernelIdeal.Frame
import Idealize.ShloMosaic.Lib.Pipeline.Value
import Idealize.ShloMosaic.Lib.Tactic
import proofs.«138596_j2044404433132_2_alg».proof.Proof.KInvariant

noncomputable section

open Idealize.ShloMosaic Idealize.ShloMosaic.TcCoe Idealize.SL.Sem
open Idealize.ShloMosaic.Pipeline (Dat)

namespace Cert.Hausdorff.Final
open Cert.KernelIdeal Cert.KernelIdeal.Gen Idealize.ShloMosaic.ValueIdx Cert.Hausdorff Cert.Hausdorff.Inv
variable (m : (ℓ : Loc nD τ sig) → Buf (Elt Ideal) ℓ)

/-- The eight scores laid out as the kernel's 8 × 1 × 1 result. -/
def G (c : Dev nD) : Buf (Elt Ideal) ((c : Thread nD τ).loc main_v1) :=
  (fun i : S8x1x1.Idx => score (P m c) (T m c) (i 0) : S8x1x1.Idx → EReal)

theorem batch_lt (t : Fin cfg0.N) : t.val / 8 < 8 := by
  have hN : cfg0.N = 64 := N_0
  have := t.isLt
  omega

/-- After the last step of a batch the output block (one entry) is the batch's score. -/
theorem out_const (c : Dev nD) (t : Fin cfg0.N) (h7 : t.val % 8 = 7) :
    (outsAt0 m c t.val t.isLt).1 = fun _ : S1x1x1.Idx => score (P m c) (T m c) ⟨t.val / 8, batch_lt t⟩ := by
  funext z
  have hz : z = ix3 (0 : Fin 1) (0 : Fin 1) (0 : Fin 1) := by
    funext a
    apply Fin.ext
    match a with
    | ⟨0, _⟩ => have h : (z 0).val < 1 := (z 0).isLt; show (z 0).val = 0; omega
    | ⟨1, _⟩ => have h : (z 1).val < 1 := (z 1).isLt; show (z 1).val = 0; omega
    | ⟨2, _⟩ => have h : (z 2).val < 1 := (z 2).isLt; show (z 2).val = 0; omega
  rw [hz]
  exact out_score m c t h7 ⟨t.val / 8, batch_lt t⟩ rfl

/-- What a write-back writes is the corresponding block of the scores. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  show (cfg0.win 2).cut (grid0.coords t) ((dats m 0 c).after 2 t) = _
  rw [after0_2, out_const m c t h7]
  funext y
  show score (P m c) (T m c) ⟨t.val / 8, batch_lt t⟩ = G m c (((cfg0.win 2).blk t).view.emb y)
  unfold G
  refine congrArg (score (P m c) (T m c)) (Fin.ext ?_)
  have hy : (y 0).val < 1 := (y 0).isLt
  show t.val / 8 = win0_2.index t 0 * 1 + 1 * (y 0).val
  rw [(Blocks.index2 t).1]
  omega

/-- Every entry of the result is in the block some write-back writes. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have h0 : (i 0).val < 8 := (i 0).isLt
  have h1 : (i 1).val < 1 := (i 1).isLt
  have h2 : (i 2).val < 1 := (i 2).isLt
  let t : Fin cfg0.N := ⟨8 * (i 0).val + 7, by omega⟩
  have ht : t.val = 8 * (i 0).val + 7 := rfl
  refine ⟨t, (flush0_2 t).mpr (by rw [ht]; omega), ?_⟩
  show i ∈ ((View.whole main_v1).slice (win0_2.rect t)).set
  rw [View.set_slice_whole, Rect.mem_set_unit]
  obtain ⟨e0, e1, e2⟩ := Blocks.index2 t
  intro a
  match a with
  | ⟨0, _⟩ =>
    show win0_2.index t 0 * 1 ≤ (i 0).val ∧ (i 0).val < win0_2.index t 0 * 1 + 1
    rw [e0, ht]; omega
  | ⟨1, _⟩ =>
    show win0_2.index t 1 * 1 ≤ (i 1).val ∧ (i 1).val < win0_2.index t 1 * 1 + 1
    rw [e1]; omega
  | ⟨2, _⟩ =>
    show win0_2.index t 2 * 1 ≤ (i 2).val ∧ (i 2).val < win0_2.index t 2 * 1 + 1
    rw [e2]; omega

/-- The result array after the grid: the eight scores. -/
theorem final (c : Dev nD) : (dats m 0 c).arrAt 2 cfg0.N = G m c :=
  (dats m 0 c).arrAt_eq_of_cover 2 (G m c) (flushed_eq m c) (cover c)

end Cert.Hausdorff.Final
end
-- ==== Proof.KRun.lean ====
/-
  The kernel program's run, read back at the ideal instance: its result is the mean of the eight batch scores.

  After the grid the 8 × 1 × 1 result array holds the eight scores; the host operations that follow re-lay it as a vector of
  eight entries (entry `b` of the vector is entry `(b, 0, 0)` of the array: the same row-major position), sum it from zero and
  divide by eight. The argument arrays end as they were launched.
-/
import proofs.«138596_j2044404433132_2_alg».proof.Proof.Gen.KernelIdeal.Frame
import Idealize.ShloMosaic.Lib.Pipeline.Value
import Idealize.ShloMosaic.Lib.Tactic
import proofs.«138596_j2044404433132_2_alg».proof.Proof.KFinal
import Idealize.ShloMosaic.Lib.StableHlo.Run

noncomputable section

open Idealize.ShloMosaic Idealize.ShloMosaic.TcCoe Idealize.SL.Sem
open Idealize.ShloMosaic.Pipeline (Dat)

namespace Cert.Hausdorff.Run
open Cert.KernelIdeal Cert.KernelIdeal.Gen Idealize.ShloMosaic.ValueIdx Cert.Hausdorff Cert.Hausdorff.Inv
variable (m : (ℓ : Loc nD τ sig) → Buf (Elt Ideal) ℓ) (ρ : Dev nD → PrngReg)

/-- An 8 × 1 × 1 array re-laid as a vector of eight entries: entry `b` is entry `(b, 0, 0)`, the same row-major position. -/
theorem reshape_apply (g : S8x1x1.Idx → EReal) (b : Fin 8) :
    shapeCast S8 g shapeCasts_S8x1x1_S8 (ix1 b) = g (ix3 b (0 : Fin 1) (0 : Fin 1)) :=
  shapeCast_apply g shapeCasts_S8x1x1_S8 (ix1 b) (ix3 b (0 : Fin 1) (0 : Fin 1)) (by
    rw [Shape.rowMajor_val_three, Shape.rowMajor_val_one]
    show (b.val * 1 + 0) * 1 + 0 = b.val
    omega)

/-- The scores' array re-laid as a vector: entry `b` is the score of batch `b`. -/
theorem reshape_G (c : Dev nD) (i : S8.Idx) :
    shapeCast S8 (Final.G m c) shapeCasts_S8x1x1_S8 i = scores (P m c) (T m c) i := by
  obtain ⟨b, rfl⟩ : ∃ b : Fin 8, i = ix1 b := ⟨i 0, eq_ix1 i⟩
  exact (reshape_apply (Final.G m c) b).trans rfl

/-- The program's result after the host operations that follow the grid: the mean of the eight scores. -/
theorem tail_eq (c : Dev nD) :
    Pipeline.afterTail₀ cfgs (dats m) 0 (V0 m) [hostOps1] c main_v4
      = mean8 reducesTo_S8_S_d0 h_S_ (scores (P m c) (T m c)) := by
  unfold Pipeline.afterTail₀
  show StableHlo.after hostOps1 _ (Proc.devRef .tc main_v4) = _
  after_results
  unfold mean8
  refine congrArg (fun v => Host.divf (F := Ideal) (φ := .f32)
    (Host.reduceAdd (F := Ideal) (φ := .f32) v (constant (F := Ideal) S_ .f32 0x00000000#32) reducesTo_S8_S_d0 h_S_)
    (constant (F := Ideal) S_ .f32 0x41000000#32)) ?_
  funext i
  have hA := (Pipeline.withArrays_arr spec0 launch0.win.arr_inj c (V0 m c) (fun w => (dats m 0 c).arrAt w cfg0.N) 2).trans
    (Final.final m c)
  show shapeCast S8 (Pipeline.withArrays spec0 c (V0 m c) (fun w => (dats m 0 c).arrAt w cfg0.N)
    (Proc.devRef .tc (Pipeline.arrRef spec0 2))) shapeCasts_S8x1x1_S8 i = _
  rw [hA]
  exact reshape_G m c i

/-- The run, read: the result at the mean of the scores of the launch contents, the arguments unchanged. -/
theorem run : θ_run defs (onTc (τ := τ) (main (F := Ideal))) ⟨m, fun _ => 0, ρ⟩ fun r => ∀ c : Dev nD,
      r.2.mem ((c.tc : Thread nD τ).loc main_v4) = mean8 reducesTo_S8_S_d0 h_S_ (scores (P m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Hausdorff.Run
end
-- ==== Proof.RefScore.lean ====
/-
  The reference program, read one stage at a time at the exact extended-real values, computes for every batch the
  symmetric Hausdorff score of the specification.

  The program forms every squared distance, takes the square root of each, then for each point of one cloud the
  smallest root over the other cloud, then the largest of those; it does this in both directions and keeps the larger
  value. The specification takes the smallest and largest of the squared distances first and one square root at the
  end. Since the square root is monotone it commutes with finite minima and maxima, so the two agree.
-/
import proofs.«138596_j2044404433132_2_alg».proof.Proof.Gen.ReferenceIdeal.Read
import proofs.«138596_j2044404433132_2_alg».proof.Proof.Spec
import Idealize.ShloMosaic.Lib.ValueIdx
import Idealize.ShloMosaic.PureOps.Reduce
import Idealize.ShloMosaic.PureOps.Ideal.Laws

noncomputable section

namespace Cert.Hausdorff.Ref

open Idealize.ShloMosaic Idealize.ShloMosaic.ValueIdx Cert.ReferenceIdeal Cert.ReferenceIdeal.Gen Cert.ReferenceIdeal.Read
  Cert.Hausdorff

/-- Each product of the difference array, read at batch `b`, points `i` and `j`, coordinate `k`: the square of the
    difference of the two points' `k`-th coordinates. -/
theorem v5_apply (x0 x1 : Pts) (b : Fin 8) (i j : Fin 4096) (k : Fin 2) :
    val_main_v5 (F := Ideal) x0 x1 (idx_main_v6 (ix3 b i j) k)
      = (x0 (ix3 b i k) - x1 (ix3 b j k)) * (x0 (ix3 b i k) - x1 (ix3 b j k)) := by
  have e0 : idx_main_v0 (idx_main_v2 (idx_main_v6 (ix3 b i j) k)) = ix3 b i k :=
    funext fun a => Fin.ext (by match a with | ⟨0, _⟩ => rfl | ⟨1, _⟩ => rfl | ⟨2, _⟩ => rfl)
  have e1 : idx_main_v1 (idx_main_v3 (idx_main_v6 (ix3 b i j) k)) = ix3 b j k :=
    funext fun a => Fin.ext (by match a with | ⟨0, _⟩ => rfl | ⟨1, _⟩ => rfl | ⟨2, _⟩ => rfl)
  rw [val_main_v5_apply, val_main_v4_apply, val_main_v2_apply, val_main_v0_apply, val_main_v3_apply,
    val_main_v1_apply, e0, e1]
  rfl

/-- The sum over the two coordinates is the squared distance. -/
theorem v6_eq_d2 (x0 x1 : Pts) (b : Fin 8) (i j : Fin 4096) :
    val_main_v6 (F := Ideal) x0 x1 (ix3 b i j) = d2 x0 x1 b i j := by
  rw [val_main_v6_apply, Fin.sum_univ_two, v5_apply, v5_apply, val_main_cst_apply]
  show Ideal.ofBits .f32 0x00000000#32 + _ = _
  rw [Ideal.ofBits_zero_f32, zero_add]
  rfl

/-- The distance array holds the square roots of the squared distances. -/
theorem v7_apply (x0 x1 : Pts) (b : Fin 8) (i j : Fin 4096) :
    val_main_v7 (F := Ideal) x0 x1 (ix3 b i j) = Ideal.sqrt (d2 x0 x1 b i j) := by
  rw [val_main_v7_apply, v6_eq_d2]
  rfl

/-- Dropping the last axis of the distance array leaves a batch-by-point array. -/
theorem red_d2 : S8x4096x4096.Reduces [2] S8x4096 := by decide
/-- Dropping the middle axis of the distance array leaves a batch-by-point array. -/
theorem red_d1 : S8x4096x4096.Reduces [1] S8x4096 := by decide
/-- Dropping the point axis of a batch-by-point array leaves one entry per batch. -/
theorem red_p : S8x4096.Reduces [1] S8 := by decide

/-- The smallest distance from point `i` of the first cloud to the second cloud. -/
theorem v8_apply (x0 x1 : Pts) (b : Fin 8) (i : Fin 4096) :
    val_main_v8 (F := Ideal) x0 x1 (ix2 b i)
      = Finset.univ.inf fun j : Fin 4096 => Ideal.sqrt (d2 x0 x1 b i j) := by
  have hl : ∀ j : Fin 4096, red_d2.lift (ix2 b i) j = ix3 b i j := fun j =>
    funext fun a => Fin.ext (by match a with | ⟨0, _⟩ => rfl | ⟨1, _⟩ => rfl | ⟨2, _⟩ => rfl)
  unfold val_main_v8
  refine (Host.reduce_eq_fold_single (FloatOps.minimumf (F := Ideal) (φ := .f32)) (val_main_v7 (F := Ideal) x0 x1)
    (val_main_cst_0 (F := Ideal)) reducesTo_S8x4096x4096_S8x4096_d2 red_d2 h_S_ (ix2 b i)).trans ?_
  show (Finset.univ : Finset (Fin 4096)).fold min (Ideal.ofBits .f32 0x7F800000#32)
      (fun j : Fin 4096 => val_main_v7 (F := Ideal) x0 x1 (red_d2.lift (ix2 b i) j)) = _
  rw [Ideal.ofBits_pinf_f32, Ideal.fold_min_top_eq_inf]
  refine Finset.inf_congr rfl fun j _ => ?_
  rw [hl, v7_apply]

/-- The smallest distance from point `j` of the second cloud to the first cloud. -/
theorem v10_apply (x0 x1 : Pts) (b : Fin 8) (j : Fin 4096) :
    val_main_v10 (F := Ideal) x0 x1 (ix2 b j)
      = Finset.univ.inf fun i : Fin 4096 => Ideal.sqrt (d2 x0 x1 b i j) := by
  have hl : ∀ i : Fin 4096, red_d1.lift (ix2 b j) i = ix3 b i j := fun i =>
    funext fun a => Fin.ext (by match a with | ⟨0, _⟩ => rfl | ⟨1, _⟩ => rfl | ⟨2, _⟩ => rfl)
  unfold val_main_v10
  refine (Host.reduce_eq_fold_single (FloatOps.minimumf (F := Ideal) (φ := .f32)) (val_main_v7 (F := Ideal) x0 x1)
    (val_main_cst_2 (F := Ideal)) reducesTo_S8x4096x4096_S8x4096_d1 red_d1 h_S_ (ix2 b j)).trans ?_
  show (Finset.univ : Finset (Fin 4096)).fold min (Ideal.ofBits .f32 0x7F800000#32)
      (fun i : Fin 4096 => val_main_v7 (F := Ideal) x0 x1 (red_d1.lift (ix2 b j) i)) = _
  rw [Ideal.ofBits_pinf_f32, Ideal.fold_min_top_eq_inf]
  refine Finset.inf_congr rfl fun i _ => ?_
  rw [hl, v7_apply]

/-- A reduction by maximum from minus infinity along the point axis of a batch-by-point array is, for each batch,
    the supremum over the points. -/
theorem reduce_max_points (f : S8x4096.Idx → EReal) (b : Fin 8) :
    Host.reduce (FloatOps.maximumf (F := Ideal) (φ := .f32)) f (constant (F := Ideal) S_ .f32 0xFF800000#32)
        reducesTo_S8x4096_S8_d1 h_S_ (ix1 b)
      = Finset.univ.sup fun i : Fin 4096 => f (ix2 b i) := by
  have hl : ∀ i : Fin 4096, red_p.lift (ix1 b) i = ix2 b i := fun i =>
    funext fun a => Fin.ext (by match a with | ⟨0, _⟩ => rfl | ⟨1, _⟩ => rfl)
  refine (Host.reduce_eq_fold_single (FloatOps.maximumf (F := Ideal) (φ := .f32)) f
    (constant (F := Ideal) S_ .f32 0xFF800000#32) reducesTo_S8x4096_S8_d1 red_p h_S_ (ix1 b)).trans ?_
  show (Finset.univ : Finset (Fin 4096)).fold max (Ideal.ofBits .f32 0xFF800000#32)
      (fun i : Fin 4096 => f (red_p.lift (ix1 b) i)) = _
  rw [Ideal.ofBits_ninf_f32, Ideal.fold_max_bot_eq_sup]
  refine Finset.sup_congr rfl fun i _ => ?_
  rw [hl]

/-- The directed distance from the first cloud to the second: the largest, over the first cloud's points, of the
    smallest distance to the second cloud. -/
theorem v9_apply (x0 x1 : Pts) (b : Fin 8) :
    val_main_v9 (F := Ideal) x0 x1 (ix1 b)
      = Finset.univ.sup fun i : Fin 4096 => Finset.univ.inf fun j : Fin 4096 => Ideal.sqrt (d2 x0 x1 b i j) := by
  unfold val_main_v9 val_main_cst_1
  refine (reduce_max_points (val_main_v8 (F := Ideal) x0 x1) b).trans ?_
  exact Finset.sup_congr rfl fun i _ => v8_apply x0 x1 b i

/-- The directed distance from the second cloud to the first. -/
theorem v11_apply (x0 x1 : Pts) (b : Fin 8) :
    val_main_v11 (F := Ideal) x0 x1 (ix1 b)
      = Finset.univ.sup fun j : Fin 4096 => Finset.univ.inf fun i : Fin 4096 => Ideal.sqrt (d2 x0 x1 b i j) := by
  unfold val_main_v11 val_main_cst_3
  refine (reduce_max_points (val_main_v10 (F := Ideal) x0 x1) b).trans ?_
  exact Finset.sup_congr rfl fun j _ => v10_apply x0 x1 b j

/-- The reference's value for batch `b` is the specification's score: the square root, being monotone, moves out of the
    inner minima, the outer maxima and the final maximum. -/
theorem ref_score (x0 x1 : Pts) (b : Fin 8) : val_main_v12 (F := Ideal) x0 x1 (ix1 b) = score x0 x1 b := by
  rw [val_main_v12_apply, v9_apply, v11_apply]
  show max _ _ = _
  unfold score hab2 hba2
  rw [Ideal.sqrt_max, Ideal.sqrt_sup, Ideal.sqrt_sup]
  refine congrArg₂ max (Finset.sup_congr rfl fun i _ => ?_) (Finset.sup_congr rfl fun j _ => ?_)
  · exact (Ideal.sqrt_inf _ _).symm
  · exact (Ideal.sqrt_inf _ _).symm

/-- The reference's vector of per-batch values is the specification's vector of scores. -/
theorem ref_scores (x0 x1 : Pts) : val_main_v12 (F := Ideal) x0 x1 = scores x0 x1 := by
  funext i
  rw [eq_ix1 i]
  exact ref_score x0 x1 (i 0)

/-- The reference's result is the mean of the eight scores. -/
theorem ref_result (x0 x1 : Pts) :
    val_main_v14 (F := Ideal) x0 x1 = mean8 reducesTo_S8_S_d0 h_S_ (scores x0 x1) := by
  unfold val_main_v14 val_main_v13 val_main_cst_4 val_main_cst_5 mean8
  rw [ref_scores]

end Cert.Hausdorff.Ref

end
-- ==== Proof.lean ====
/-
  The symmetric Hausdorff score of two clouds of planar points, averaged over eight batches: a tiled kernel against the
  textbook formula, equal as extended reals.

  For each batch the reference forms all 4096 × 4096 Euclidean distances (a square root of a sum of two squared
  differences), takes for each point of one cloud the smallest distance to the other cloud, then the largest of those, in
  both directions, and keeps the larger of the two directed terms. The kernel never forms the square roots of the
  distances: over eight steps of 512 rows it keeps, for squared distances, a running column minimum (one entry per point of
  the second cloud) and a running maximum of row minima, and after the last step takes one square root of the larger of the
  running maximum and the largest column minimum. The two agree because the square root of the extended reals is monotone
  (it sends the bottom element and the negatives to the bottom element and fixes the top element), so it commutes with
  finite minima and maxima, the empty ones included; and because a minimum or maximum over 4096 rows taken block by block
  from plus or minus infinity is the minimum or maximum over all rows. No finiteness of the inputs is used. Both programs
  then average the eight scores by the same sum from zero and division by eight.

  The frames of the two kernel programs are the generated ones; the reference's frame is its generated run with the result
  dropped; the idealization rewrote no operation.
-/
import proofs.«138596_j2044404433132_2_alg».proof.Defs
import proofs.«138596_j2044404433132_2_alg».proof.Proof.Gen.Kernel
import proofs.«138596_j2044404433132_2_alg».proof.Proof.Gen.Kernel.Skeleton
import proofs.«138596_j2044404433132_2_alg».proof.Proof.Gen.Kernel.Launch
import proofs.«138596_j2044404433132_2_alg».proof.Proof.Gen.Kernel.Points
import proofs.«138596_j2044404433132_2_alg».proof.Proof.Gen.Kernel.Frame
import proofs.«138596_j2044404433132_2_alg».proof.Proof.Gen.KernelIdeal
import proofs.«138596_j2044404433132_2_alg».proof.Proof.Gen.KernelIdeal.Skeleton
import proofs.«138596_j2044404433132_2_alg».proof.Proof.Gen.KernelIdeal.Launch
import proofs.«138596_j2044404433132_2_alg».proof.Proof.Gen.KernelIdeal.Points
import proofs.«138596_j2044404433132_2_alg».proof.Proof.Gen.KernelIdeal.Frame
import proofs.«138596_j2044404433132_2_alg».proof.Proof.Gen.ReferenceIdeal
import proofs.«138596_j2044404433132_2_alg».proof.Proof.Gen.Pre_finite_inputs
import proofs.«138596_j2044404433132_2_alg».proof.Proof.Gen.ReferenceIdeal.Run
import proofs.«138596_j2044404433132_2_alg».proof.Proof.Gen.ReferenceIdeal.Read
import proofs.«138596_j2044404433132_2_alg».proof.Proof.KRun
import proofs.«138596_j2044404433132_2_alg».proof.Proof.RefScore
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean of the eight batch scores of arguments that agree. -/
theorem algebraic : Cert.algebraic_KernelIdeal_ReferenceIdeal := by
  intro m ρ m' ρ' _ hagree
  refine ⟨_, Cert.Hausdorff.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Hausdorff.Ref.ref_result, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
